-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S1024x1024 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S64x8192 .f32) (main_arg1 : FVec F S8192x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S64x8192 : Shape := ⟨2, ![64, 8192]⟩
abbrev S8192x8192 : Shape := ⟨2, ![8192, 8192]⟩
abbrev S8x8x128 : Shape := ⟨3, ![8, 8, 128]⟩
abbrev S1024x1024 : Shape := ⟨2, ![1024, 1024]⟩
abbrev S64x1024 : Shape := ⟨2, ![64, 1024]⟩
abbrev S1x8x128 : Shape := ⟨3, ![1, 8, 128]⟩
abbrev S8x128 : Shape := ⟨2, ![8, 128]⟩
abbrev S1024x1 : Shape := ⟨2, ![1024, 1]⟩
abbrev S1 : Shape := ⟨1, ![1]⟩
abbrev S1x1 : Shape := ⟨2, ![1, 1]⟩
abbrev S_ : Shape := ⟨0, ![]⟩

abbrev nBuf : Space → Nat
  | .hbm => 12
  | .vmem => 9
  | .smem => 0
  | _ => 0

abbrev bufTy : (tb : Table) → Fin (tcTables nBuf tb) → BufTy
  | .hbm, ⟨0, _⟩ => ⟨S64x8192, .f32⟩
  | .hbm, ⟨1, _⟩ => ⟨S8192x8192, .f32⟩
  | .hbm, ⟨2, _⟩ => ⟨S64x8192, .f32⟩
  | .hbm, ⟨3, _⟩ => ⟨S8x8x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S64x8192, .f32⟩
  | .hbm, ⟨11, _⟩ => ⟨S64x8192, .f32⟩
  | .local _ .vmem, ⟨0, _⟩ => ⟨S64x8192, .f32⟩
  | .local _ .vmem, ⟨1, _⟩ => ⟨S1024x1024, .f32⟩
  | .local _ .vmem, ⟨2, _⟩ => ⟨S1024x1024, .f32⟩
  | .local _ .vmem, ⟨3, _⟩ => ⟨S64x1024, .f32⟩
  | .local _ .vmem, ⟨4, _⟩ => ⟨S64x1024, .f32⟩
  | .local _ .vmem, ⟨5, _⟩ => ⟨S1x8x128, .f32⟩
  | .local _ .vmem, ⟨6, _⟩ => ⟨S1x8x128, .f32⟩
  | .local _ .vmem, ⟨7, _⟩ => ⟨S64x1024, .f32⟩
  | .local _ .vmem, ⟨8, _⟩ => ⟨S8x128, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v17 : BitVec 32 := Scalar.muli arg1 c1024_i32
  v17
def k0_off1 (i : grid0.Coords) : Fin 2 → Nat :=
  let c0_2 : Index := 0#32
  let arg1 : BitVec 32 := BitVec.ofNat 32 (i 1).val
  let c1024_i32 : BitVec 32 := 1024#32
  let v17 : BitVec 32 := Scalar.muli arg1 c1024_i32
  let v18 : BitVec 32 := v17
  let v19 : Index := Scalar.indexCast v18
  ![0, v19.toNat]
def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_15 : BitVec 32 := 0#32
  let v40 : BitVec 1 := Scalar.cmpi .ne v39 c0_i32_15
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S64x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  reduces_S1024x1_S1 : S1024x1.Reduces [0] S1
  shapeCasts_S1_S1x1 : S1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S8x8x128_S_d0_1_2 : S8x8x128.ReducesTo [0, 1, 2] S_
  h_S_ : 0 < S_.numel
  bcast_S_S64x8192 : S_.BroadcastsInDim S64x8192 (![] : Fin 0 → Fin S64x8192.rank)
  dot_S64x1024_S1024x1024_S64x1024_1_1_0_0_n_n_wf : DotDims.WF S64x1024 S1024x1024 S64x1024 [1] [1] [0] [0] [] []
  dot_S1024x1024_S1024x1_S1024x1_1_0_0_1_n_n_wf : DotDims.WF S1024x1024 S1024x1 S1024x1 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S64x1024.size a ≤ S64x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S64x8192.size a
  hwx0_0 : ∀ i : grid0.Coords, EltTy.bits .f32 = 32 ∨ (Rect.block (s := S64x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x8192.size a
  hwx0_2 : ∀ i : grid0.Coords, EltTy.bits .f32 = 32 ∨ (Rect.block (s := S64x8192) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S8x8x128.size a
  hwx0_3 : ∀ i : grid0.Coords, EltTy.bits .f32 = 32 ∨ (Rect.block (s := S8x8x128) S1x8x128.size (cc0_transform_3 i) (hinb0_3 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_arg0) S64x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S64x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

class Facts : Prop extends Facts₀ where

variable [Facts]
-- ==== ReferenceIdeal.lean ====
abbrev S64x8192 : Shape := ⟨2, ![64, 8192]⟩
abbrev S8192x8192 : Shape := ⟨2, ![8192, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_cst_2 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]

class Facts₀ : Prop where
  reducesTo_S8192x8192_S_d0_1 : S8192x8192.ReducesTo [0, 1] S_
  h_S_ : 0 < S_.numel
  bcast_S_S8192x8192 : S_.BroadcastsInDim S8192x8192 (![] : Fin 0 → Fin S8192x8192.rank)
  dot_S64x8192_S8192x8192_S64x8192_1_1_0_0_n_n_wf : DotDims.WF S64x8192 S8192x8192 S64x8192 [1] [1] [0] [0] [] []

variable [Facts₀]

def dot_S64x8192_S8192x8192_S64x8192_1_1_0_0_n_n : DotDims S64x8192 S8192x8192 S64x8192 where
  lhsContracting := [1]
  rhsContracting := [1]
  lhsNonContracting := [0]
  rhsNonContracting := [0]
  lhsBatch := []
  rhsBatch := []
  wf := dot_S64x8192_S8192x8192_S64x8192_1_1_0_0_n_n_wf

class Facts : Prop extends Facts₀ where

variable [Facts]
-- ==== Proof.Pieces.lean ====
/-
  What the kernel body leaves in its two accumulators and, at the last step along the reduction axis, in its two
  output blocks, as the body's arithmetic applied to what it loaded. The grid is 8 × 8, the second axis k the
  reduction; at a point the body reads the whole x, the weight tile W(o, k), and the two accumulators.
  At k = 0 the accumulators are first zeroed; at k = 7 the accumulated values are also copied to the output blocks.
  In every case the new partial-product accumulator is the old one (zero at k = 0) plus x's columns
  [1024k, 1024k + 1024) times the transposed sign tile, and the new magnitude accumulator is the old one (zero at
  k = 0) plus the tile's total of w · sign w, broadcast over its 8 × 128 entries.
-/
import proofs.«112605_j6373731467797_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 1024 columns of x the body reads at a point: columns [1024k, 1024k + 1024), k the point's second coordinate. -/
def xcols (i : grid0.Coords) (x0 : Vec F S64x8192 .f32) : Vec F S64x1024 .f32 :=
  View.ld x0 (Rect.unit (k0_off1 i) S64x1024.size (k0_off1_inb i))
/-- k = 0: the partial-product accumulator is zero plus this step's product. -/
theorem acc_A (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : cond0_0 i) (hc1 : ¬cond0_1 i)
    (x0 : Vec F S64x8192 .f32) (x1 : Vec F S1024x1024 .f32) :
    sout0_A_0 c i arg2 harg2 arg3 harg3 arg4 harg4 arg5 harg5 arg6 harg6 arg7 harg7 hc0 hc1 x0 x1 = k0_pay5 x1 (xcols i x0) (k0_pay2 (F := F)) := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S64x1024) hz2, View.readCov_unit_zero (S := S64x1024) _ hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]
  rfl

/-- k = 0: the magnitude accumulator is zero plus this tile's total. -/
theorem mag_A (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : cond0_0 i) (hc1 : ¬cond0_1 i)
    (x0 : Vec F S64x8192 .f32) (x1 : Vec F S1024x1024 .f32) :
    sout0_A_1 c i arg2 harg2 arg3 harg3 arg4 harg4 arg5 harg5 arg6 harg6 arg7 harg7 hc0 hc1 x0 x1 = k0_pay6 x1 (k0_pay3 (F := F)) := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x128) hz2, View.readCov_unit_zero (S := S8x128) _ hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]

/-- 0 < k < 7: the old accumulator plus this step's product. -/
theorem acc_B (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : ¬cond0_1 i)
    (x0 : Vec F S64x8192 .f32) (x1 : Vec F S1024x1024 .f32) (xs0 : Vec F S64x1024 .f32) (xs1 : Vec F S8x128 .f32) :
    sout0_B_0 c i arg2 harg2 arg3 harg3 arg4 harg4 arg5 harg5 arg6 harg6 arg7 harg7 hc0 hc1 x0 x1 xs0 xs1 = k0_pay5 x1 (xcols i x0) xs0 := by
  unfold sout0_B_0
  rw [View.read_writes_eq_canon _ _ _ (scover0_B_0 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]
  rfl

/-- 0 < k < 7: the old magnitude accumulator plus this tile's total. -/
theorem mag_B (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : ¬cond0_1 i)
    (x0 : Vec F S64x8192 .f32) (x1 : Vec F S1024x1024 .f32) (xs0 : Vec F S64x1024 .f32) (xs1 : Vec F S8x128 .f32) :
    sout0_B_1 c i arg2 harg2 arg3 harg3 arg4 harg4 arg5 harg5 arg6 harg6 arg7 harg7 hc0 hc1 x0 x1 xs0 xs1 = k0_pay6 x1 xs1 := by
  unfold sout0_B_1
  rw [View.read_writes_eq_canon _ _ _ (scover0_B_1 c i arg2 harg2 arg3 harg3 arg4 harg4 arg5 harg5 arg6 harg6 arg7 harg7 hc0 hc1 x0 x1 xs0 xs1)]
  unfold kernelRun0_B
  dsimp only
  sl_unfold_words
  rw [View.canon_unit_zero hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]

/-- k = 7: the accumulators as at the steps before, -/
theorem acc_C (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : cond0_1 i)
    (x0 : Vec F S64x8192 .f32) (x1 : Vec F S1024x1024 .f32) (xs0 : Vec F S64x1024 .f32) (xs1 : Vec F S8x128 .f32) :
    sout0_C_0 c i arg2 harg2 arg3 harg3 arg4 harg4 arg5 harg5 arg6 harg6 arg7 harg7 hc0 hc1 x0 x1 xs0 xs1 = k0_pay5 x1 (xcols i x0) xs0 := by
  unfold sout0_C_0
  rw [View.read_writes_eq_canon _ _ _ (scover0_C_0 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]
  rfl

theorem mag_C (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : cond0_1 i)
    (x0 : Vec F S64x8192 .f32) (x1 : Vec F S1024x1024 .f32) (xs0 : Vec F S64x1024 .f32) (xs1 : Vec F S8x128 .f32) :
    sout0_C_1 c i arg2 harg2 arg3 harg3 arg4 harg4 arg5 harg5 arg6 harg6 arg7 harg7 hc0 hc1 x0 x1 xs0 xs1 = k0_pay6 x1 xs1 := by
  unfold sout0_C_1
  rw [View.read_writes_eq_canon _ _ _ (scover0_C_1 c i arg2 harg2 arg3 harg3 arg4 harg4 arg5 harg5 arg6 harg6 arg7 harg7 hc0 hc1 x0 x1 xs0 xs1)]
  unfold kernelRun0_C
  dsimp only
  sl_unfold_words
  rw [View.canon_unit_zero hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]

/-- and the output blocks their copies: the product block is the new accumulator, -/
theorem out_C (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : cond0_1 i)
    (x0 : Vec F S64x8192 .f32) (x1 : Vec F S1024x1024 .f32) (xs0 : Vec F S64x1024 .f32) (xs1 : Vec F S8x128 .f32) :
    out0_C_2 c i arg2 harg2 arg3 harg3 arg4 harg4 arg5 harg5 arg6 harg6 arg7 harg7 hc0 hc1 x0 x1 xs0 xs1 = k0_pay5 x1 (xcols i x0) xs0 := by
  unfold out0_C_2
  rw [View.read_writes_eq_canon _ _ _ (cover0_C_2 c i arg2 harg2 arg3 harg3 arg4 harg4 arg5 harg5 arg6 harg6 arg7 harg7 hc0 hc1 x0 x1 xs0 xs1)]
  unfold kernelRun0_C
  dsimp only
  sl_unfold_words
  rw [View.canon_unit_zero hz2, View.readCov_unit_zero (S := S64x1024) _ hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]
  rfl

/-- the magnitude slab the new magnitude accumulator with a leading unit axis. -/
theorem slab_C (c : Dev nD) (i : grid0.Coords) (arg2 : Memref sig .tc .vmem S64x8192 .f32) (harg2 : arg2.IsWhole) (arg3 : Memref sig .tc .vmem S1024x1024 .f32) (harg3 : arg3.IsWhole) (arg4 : Memref sig .tc .vmem S64x1024 .f32) (harg4 : arg4.IsWhole) (arg5 : Memref sig .tc .vmem S1x8x128 .f32) (harg5 : arg5.IsWhole) (arg6 : Memref sig .tc .vmem S64x1024 .f32) (harg6 : arg6.IsWhole) (arg7 : Memref sig .tc .vmem S8x128 .f32) (harg7 : arg7.IsWhole) (hc0 : ¬cond0_0 i) (hc1 : cond0_1 i)
    (x0 : Vec F S64x8192 .f32) (x1 : Vec F S1024x1024 .f32) (xs0 : Vec F S64x1024 .f32) (xs1 : Vec F S8x128 .f32) :
    out0_C_3 c i arg2 harg2 arg3 harg3 arg4 harg4 arg5 harg5 arg6 harg6 arg7 harg7 hc0 hc1 x0 x1 xs0 xs1 = k0_pay1 (k0_pay6 x1 xs1) := by
  unfold out0_C_3
  rw [View.read_writes_eq_canon _ _ _ (cover0_C_3 c i arg2 harg2 arg3 harg3 arg4 harg4 arg5 harg5 arg6 harg6 arg7 harg7 hc0 hc1 x0 x1 xs0 xs1)]
  unfold kernelRun0_C
  dsimp only
  sl_unfold_words
  rw [View.canon_unit_zero hz3, View.readCov_unit_zero (S := S8x128) _ hz2]
  simp only [View.readAt_eq_ld, harg2.read_unread, harg3.read_unread, harg6.read_unread, harg7.read_unread, View.ld_unit_zero (S := S1024x1024) hz2, View.ld_unit_zero (S := S64x1024) hz2, View.ld_unit_zero (S := S8x128) hz2]

end Cert.KernelIdeal.Pieces

end
-- ==== Proof.PointValues.lean ====
/-
  What the two accumulators, and at the last reduction step the two output blocks, hold after the body at each
  point of the grid: the body's arithmetic applied to the point's weight tile, the point's columns of x, and the
  accumulators as the previous point left them (zero at the first reduction step).
-/
import proofs.«112605_j6373731467797_2_alg».proof.Proof.Pieces

set_option maxRecDepth 16384

noncomputable section

open Idealize.ShloMosaic Idealize.ShloMosaic.TcCoe Idealize.SL.Sem
open Idealize.ShloMosaic.Pipeline (Dat)

namespace Cert.KernelIdeal.PointValues

open Cert.KernelIdeal Cert.KernelIdeal.Gen Cert.KernelIdeal.Pieces

variable {F : FTy → Type} [FloatOps F]
variable (m : (ℓ : Loc nD τ sig) → Buf (Elt F) ℓ)

/-- First reduction step (k = 0): both accumulators start from zero. -/
theorem acc_first (c : Dev nD) (t : Fin cfg0.N) (h0 : t.val % 8 = 0) (h1 : ¬t.val % 8 = 7) :
    (outsAt0 m c t.val t.isLt).2.2.1 = k0_pay5 (iblk m c 1 t) (xcols (grid0.coords t) (iblk m c 0 t)) (k0_pay2 (F := F)) := by
  rw [outsAt0_A m c t h0 h1]
  dsimp only
  exact acc_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

theorem mag_first (c : Dev nD) (t : Fin cfg0.N) (h0 : t.val % 8 = 0) (h1 : ¬t.val % 8 = 7) :
    (outsAt0 m c t.val t.isLt).2.2.2 = k0_pay6 (iblk m c 1 t) (k0_pay3 (F := F)) := by
  rw [outsAt0_A m c t h0 h1]
  dsimp only
  exact mag_A (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t)

/-- A middle reduction step (0 < k < 7): both accumulators continue from the previous point. -/
theorem acc_mid (c : Dev nD) (t : Fin cfg0.N) (h0 : ¬t.val % 8 = 0) (h1 : ¬t.val % 8 = 7) :
    (outsAt0 m c t.val t.isLt).2.2.1 = k0_pay5 (iblk m c 1 t) (xcols (grid0.coords t) (iblk m c 0 t)) (outsAt0 m c (t.val - 1) (Nat.lt_of_le_of_lt (Nat.sub_le _ _) t.isLt)).2.2.1 := by
  rw [outsAt0_B m c t h0 h1]
  dsimp only
  exact acc_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem mag_mid (c : Dev nD) (t : Fin cfg0.N) (h0 : ¬t.val % 8 = 0) (h1 : ¬t.val % 8 = 7) :
    (outsAt0 m c t.val t.isLt).2.2.2 = k0_pay6 (iblk m c 1 t) (outsAt0 m c (t.val - 1) (Nat.lt_of_le_of_lt (Nat.sub_le _ _) t.isLt)).2.2.2 := by
  rw [outsAt0_B m c t h0 h1]
  dsimp only
  exact mag_B (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

/-- The last reduction step (k = 7): the accumulators continue, and the two output blocks receive their copies. -/
theorem acc_last (c : Dev nD) (t : Fin cfg0.N) (h0 : ¬t.val % 8 = 0) (h1 : t.val % 8 = 7) :
    (outsAt0 m c t.val t.isLt).2.2.1 = k0_pay5 (iblk m c 1 t) (xcols (grid0.coords t) (iblk m c 0 t)) (outsAt0 m c (t.val - 1) (Nat.lt_of_le_of_lt (Nat.sub_le _ _) t.isLt)).2.2.1 := by
  rw [outsAt0_C m c t h0 h1]
  dsimp only
  exact acc_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem mag_last (c : Dev nD) (t : Fin cfg0.N) (h0 : ¬t.val % 8 = 0) (h1 : t.val % 8 = 7) :
    (outsAt0 m c t.val t.isLt).2.2.2 = k0_pay6 (iblk m c 1 t) (outsAt0 m c (t.val - 1) (Nat.lt_of_le_of_lt (Nat.sub_le _ _) t.isLt)).2.2.2 := by
  rw [outsAt0_C m c t h0 h1]
  dsimp only
  exact mag_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem out_last (c : Dev nD) (t : Fin cfg0.N) (h0 : ¬t.val % 8 = 0) (h1 : t.val % 8 = 7) :
    (outsAt0 m c t.val t.isLt).1 = k0_pay5 (iblk m c 1 t) (xcols (grid0.coords t) (iblk m c 0 t)) (outsAt0 m c (t.val - 1) (Nat.lt_of_le_of_lt (Nat.sub_le _ _) t.isLt)).2.2.1 := by
  rw [outsAt0_C m c t h0 h1]
  dsimp only
  exact out_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

theorem slab_last (c : Dev nD) (t : Fin cfg0.N) (h0 : ¬t.val % 8 = 0) (h1 : t.val % 8 = 7) :
    (outsAt0 m c t.val t.isLt).2.1 = k0_pay1 (k0_pay6 (iblk m c 1 t) (outsAt0 m c (t.val - 1) (Nat.lt_of_le_of_lt (Nat.sub_le _ _) t.isLt)).2.2.2) := by
  rw [outsAt0_C m c t h0 h1]
  dsimp only
  exact slab_C (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.PointValues

end
-- ==== Proof.Consts.lean ====
/-
  The float literals the two programs spell, as the extended reals they denote: the zero, one (f32 and bf16),
  minus one, 1024 = 8 · 128 (the number of copies each slab of the partial-sum buffer holds) and
  2^26 = 8192 · 8192 (the number of entries of the weight matrix). Stated once, here; the other modules read
  them by name.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

theorem ofBits_one_bf16 : Ideal.ofBits .bf16 0x3F80#16 = 1 := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_two_pow_26 : Ideal.ofBits .f32 0x4C800000#32 = ((67108864 : ℝ) : EReal) := by
  simp [Ideal.ofBits, Ideal.ieee, -EReal.coe_mul]; norm_num

end Cert.Consts

end
-- ==== Proof.Payloads.lean ====
/-
  The body's arithmetic read at an index, over the extended reals. With W a 1024 × 1024 weight tile, X the
  64 × 1024 slice of x's columns it meets, and A, M the two accumulators:

    sign tile:              sg W (r, l) = sign (W (r, l))
    partial products:       (A + X · (sg W)ᵀ) (b, j) = A (b, j) + ∑ l, X (b, l) · sign (W (j, l))
    magnitudes:             (M + total) (p, q)       = M (p, q) + ∑ r, ∑ l, W (r, l) · sign (W (r, l))

  (a change of float format is the identity; the matrix product into a zero accumulator is the plain sum of
  products; the product with the column of ones is the row sum; the sum over the rows of that column is the
  double sum; its broadcast over 8 × 128 repeats it), and the two zero blocks the first step stores are zero.
-/
import proofs.«112605_j6373731467797_2_alg».proof.Proof.Gen.KernelIdeal.Skeleton
import proofs.«112605_j6373731467797_2_alg».proof.Proof.Consts
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx

/-- The contraction of x's slice with the sign tile over the tile's columns. -/
abbrev DX := dot_S64x1024_S1024x1024_S64x1024_1_1_0_0_n_n
/-- The contraction of the magnitude tile with the column of ones. -/
abbrev DW := dot_S1024x1024_S1024x1_S1024x1_1_0_0_1_n_n

/-- The kernel's sign of a tile (one where the magnitude is positive with the sign carried over, the entry itself at
    zero) is the sign function at every entry. -/
theorem sign_tile (v3 : Vec Ideal S1024x1024 .f32) (y : S1024x1024.Idx) : k0_pay4 v3 y = Ideal.sign (v3 y) := by
  unfold k0_pay4
  exact Ideal.jnp_sign_eq_sign_f32 (v3 y)

theorem zero_acc (y : S64x1024.Idx) : k0_pay2 (F := Ideal) y = 0 := by
  unfold k0_pay2
  rw [shapeCast_self]
  exact Cert.Consts.ofBits_zero

theorem zero_mag (y : S8x128.Idx) : k0_pay3 (F := Ideal) y = 0 := by
  unfold k0_pay3
  rw [shapeCast_self]
  exact Cert.Consts.ofBits_zero

/-! ### The index maps of the two contractions, coordinate by coordinate -/

theorem dx_lhs0 (i : S64x1024.Idx) (q : DX.contr.Idx) : (DX.lhsIdx i q 0).val = (i 0).val := by
  unfold DotDims.lhsIdx
  rw [dif_neg (show ¬(0 : Fin S64x1024.rank) ∈ DX.lhsBatch by decide), dif_pos (show (0 : Fin S64x1024.rank) ∈ DX.lhsNonContracting by decide)]
  rfl
theorem dx_lhs1 (i : S64x1024.Idx) (q : DX.contr.Idx) : (DX.lhsIdx i q 1).val = (q ⟨0, by decide⟩).val :=
  DX.lhsIdx_val_of_single rfl i q
theorem dx_rhs0 (i : S64x1024.Idx) (q : DX.contr.Idx) : (DX.rhsIdx i q 0).val = (i 1).val := by
  unfold DotDims.rhsIdx
  rw [dif_neg (show ¬(0 : Fin S1024x1024.rank) ∈ DX.rhsBatch by decide), dif_pos (show (0 : Fin S1024x1024.rank) ∈ DX.rhsNonContracting by decide)]
  rfl
theorem dx_rhs1 (i : S64x1024.Idx) (q : DX.contr.Idx) : (DX.rhsIdx i q 1).val = (q ⟨0, by decide⟩).val :=
  DX.rhsIdx_val_of_single rfl i q

theorem dw_lhs0 (i : S1024x1.Idx) (q : DW.contr.Idx) : (DW.lhsIdx i q 0).val = (i 0).val := by
  unfold DotDims.lhsIdx
  rw [dif_neg (show ¬(0 : Fin S1024x1024.rank) ∈ DW.lhsBatch by decide), dif_pos (show (0 : Fin S1024x1024.rank) ∈ DW.lhsNonContracting by decide)]
  rfl
theorem dw_lhs1 (i : S1024x1.Idx) (q : DW.contr.Idx) : (DW.lhsIdx i q 1).val = (q ⟨0, by decide⟩).val :=
  DW.lhsIdx_val_of_single rfl i q
theorem dw_rhs0 (i : S1024x1.Idx) (q : DW.contr.Idx) : (DW.rhsIdx i q 0).val = (q ⟨0, by decide⟩).val :=
  DW.rhsIdx_val_of_single rfl i q
theorem dw_rhs1 (i : S1024x1.Idx) (q : DW.contr.Idx) : (DW.rhsIdx i q 1).val = (i 1).val := by
  unfold DotDims.rhsIdx
  rw [dif_neg (show ¬(1 : Fin S1024x1.rank) ∈ DW.rhsBatch by decide), dif_pos (show (1 : Fin S1024x1.rank) ∈ DW.rhsNonContracting by decide)]
  rfl

/-- x's slice times the transposed sign tile, at (b, j): the sum over the tile's columns l. -/
theorem slice_dot_sign (v3 : Vec Ideal S1024x1024 .f32) (v20 : Vec Ideal S64x1024 .f32) (b : Fin 64) (j : Fin 1024) :
    FloatOps.matmul DX none (truncf .bf16 v20 bitsLt_bf16_f32) (truncf .bf16 (k0_pay4 v3) bitsLt_bf16_f32)
        (constant S64x1024 .f32 0x00000000#32) (ix2 b j)
      = ∑ l : Fin 1024, v20 (ix2 b l) * Ideal.sign (v3 (ix2 j l)) := by
  refine (Ideal.matmul_constant_zero_apply DX none _ _ (ix2 b j)).trans ?_
  rw [← Equiv.sum_comp (contrEquiv1 DX 1024 rfl rfl).symm]
  refine Finset.sum_congr rfl fun l _ => ?_
  have hk := contrEquiv1_symm_val DX 1024 rfl rfl l
  have el : DX.lhsIdx (ix2 b j) ((contrEquiv1 DX 1024 rfl rfl).symm l) = ix2 b l := funext fun a => Fin.ext (by
    match a with
    | ⟨0, _⟩ => exact dx_lhs0 _ _
    | ⟨1, _⟩ => exact (dx_lhs1 _ _).trans hk)
  have er : DX.rhsIdx (ix2 b j) ((contrEquiv1 DX 1024 rfl rfl).symm l) = ix2 j l := funext fun a => Fin.ext (by
    match a with
    | ⟨0, _⟩ => exact dx_rhs0 _ _
    | ⟨1, _⟩ => exact (dx_rhs1 _ _).trans hk)
  rw [el, er]
  show v20 (ix2 b l) * k0_pay4 v3 (ix2 j l) = _
  rw [sign_tile]

/-- The new partial-product accumulator at (b, j). -/
theorem acc_step (v3 : Vec Ideal S1024x1024 .f32) (v20 v23 : Vec Ideal S64x1024 .f32) (b : Fin 64) (j : Fin 1024) :
    k0_pay5 v3 v20 v23 (ix2 b j) = v23 (ix2 b j) + ∑ l : Fin 1024, v20 (ix2 b l) * Ideal.sign (v3 (ix2 j l)) := by
  unfold k0_pay5
  rw [shapeCast_self]
  exact congrArg (v23 (ix2 b j) + ·) (slice_dot_sign v3 v20 b j)

/-- The magnitude tile's row sums, as the product with the column of ones, at row r. -/
theorem row_sums (v3 : Vec Ideal S1024x1024 .f32) (r : Fin 1024) (z : Fin 1) :
    FloatOps.matmul DW none (truncf .bf16 (mulf v3 (k0_pay4 v3)) bitsLt_bf16_f32)
        (broadcast S1024x1 (Scalar.ofBits (F := Ideal) .bf16 0x3F80#16)) (constant S1024x1 .f32 0x00000000#32) (ix2 r z)
      = ∑ l : Fin 1024, v3 (ix2 r l) * Ideal.sign (v3 (ix2 r l)) := by
  refine (Ideal.matmul_constant_zero_apply DW none _ _ (ix2 r z)).trans ?_
  rw [← Equiv.sum_comp (contrEquiv1 DW 1024 rfl rfl).symm]
  refine Finset.sum_congr rfl fun l _ => ?_
  have hk := contrEquiv1_symm_val DW 1024 rfl rfl l
  have el : DW.lhsIdx (ix2 r z) ((contrEquiv1 DW 1024 rfl rfl).symm l) = ix2 r l := funext fun a => Fin.ext (by
    match a with
    | ⟨0, _⟩ => exact dw_lhs0 _ _
    | ⟨1, _⟩ => exact (dw_lhs1 _ _).trans hk)
  rw [el]
  show (v3 (ix2 r l) * k0_pay4 v3 (ix2 r l)) * Ideal.ofBits .bf16 0x3F80#16 = _
  rw [sign_tile, Cert.Consts.ofBits_one_bf16, mul_one]

/-- The new magnitude accumulator at (p, q): the old one plus the tile's total. -/
theorem mag_step (v3 : Vec Ideal S1024x1024 .f32) (v32 : Vec Ideal S8x128 .f32) (p : Fin 8) (q : Fin 128) :
    k0_pay6 v3 v32 (ix2 p q) = v32 (ix2 p q) + ∑ r : Fin 1024, ∑ l : Fin 1024, v3 (ix2 r l) * Ideal.sign (v3 (ix2 r l)) := by
  unfold k0_pay6
  dsimp only
  rw [shapeCast_self]
  refine congrArg (v32 (ix2 p q) + ·) ?_
  refine (broadcastTo_apply _ broadcasts_S1x1_S8x128 (ix2 p q) (ix2 (0 : Fin 1) (0 : Fin 1)) (fun a => by
    match a with
    | ⟨0, _⟩ => rfl
    | ⟨1, _⟩ => rfl)).trans ?_
  refine (shapeCast_apply _ shapeCasts_S1_S1x1 (ix2 (0 : Fin 1) (0 : Fin 1)) (ix1 (0 : Fin 1)) rfl).trans ?_
  refine (Ideal.multiReduction_add_single _ 0x00000000#32 reduces_S1024x1_S1 (.inl rfl) rfl (ix1 (0 : Fin 1))).trans ?_
  refine Finset.sum_congr rfl fun r _ => ?_
  have e : reduces_S1024x1_S1.lift (ix1 (0 : Fin 1)) r = ix2 r (0 : Fin 1) := funext fun a => Fin.ext (by
    match a with
    | ⟨0, _⟩ => rfl
    | ⟨1, _⟩ => rfl)
  rw [e]
  exact row_sums v3 r 0

/-- The slab written at the last step is the magnitude accumulator with a leading unit axis. -/
theorem slab (v43 : Vec Ideal S8x128 .f32) (z : Fin 1) (p : Fin 8) (q : Fin 128) :
    k0_pay1 v43 (ix3 z p q) = v43 (ix2 p q) := by
  unfold k0_pay1
  exact shapeCast_ab_1ab_apply v43 shapeCasts_S8x128_S1x8x128 z p q

end Cert.KernelIdeal.Payloads

end
-- ==== Proof.Blocks.lean ====
/-
  Where the blocks sit. Point t of the 8 × 8 grid is (o, k) = (t / 8, t % 8). The weight window's block is the
  1024 × 1024 tile at block row o and block column k of w; x's window is the whole of x at every point, and the
  body reads of it the columns [1024k, 1024k + 1024); the product window's block is columns [1024o, 1024o + 1024)
  of the 64 × 8192 result; the magnitude window's block is slab o of the 8 × 8 × 128 buffer.
-/
import proofs.«112605_j6373731467797_2_alg».proof.Proof.Pieces
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-- The four windows' block indices and the offset of the column slice, at every point of the grid. -/
theorem idx_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = 0 ∧ win0_2.index t (1 : Fin 2) = t.val / 8
    ∧ win0_3.index t (0 : Fin 3) = t.val / 8 ∧ win0_3.index t (1 : Fin 3) = 0 ∧ win0_3.index t (2 : Fin 3) = 0
    ∧ k0_off1 (grid0.coords t) (0 : Fin 2) = 0 ∧ k0_off1 (grid0.coords t) (1 : Fin 2) = 1024 * (t.val % 8) :=
  (by decide +kernel : ∀ t : Fin grid0.N, _)

/-- Entry (r, l) of the weight tile at point t is w (1024 (t / 8) + r, 1024 (t % 8) + l). -/
theorem wtile_apply (c : Dev nD) (t : Fin cfg0.N) (r l : Fin 1024) (i : S8192x8192.Idx)
    (h0 : (i 0).val = 1024 * (t.val / 8) + r.val) (h1 : (i 1).val = 1024 * (t.val % 8) + l.val) :
    (iblk m c 1 t : Vec F S1024x1024 .f32) (ix2 r l) = V m c main_arg1 i := by
  obtain ⟨-, -, e0, e1, -⟩ := idx_facts t
  unfold iblk
  rw [View.read_apply]
  show V m c main_arg1 _ = V m c main_arg1 i
  refine congrArg (V m c main_arg1) (funext fun a => Fin.ext ?_)
  match a with
  | ⟨0, _⟩ => show win0_1.index t (0 : Fin 2) * 1024 + 1 * r.val = (i 0).val; rw [e0, h0]; omega
  | ⟨1, _⟩ => show win0_1.index t (1 : Fin 2) * 1024 + 1 * l.val = (i 1).val; rw [e1, h1]; omega

/-- x's window holds the whole of x at every point. -/
theorem xwhole_apply (c : Dev nD) (t : Fin cfg0.N) (i : S64x8192.Idx) :
    (iblk m c 0 t : Vec F S64x8192 .f32) i = V m c main_arg0 i := by
  obtain ⟨e0, e1, -⟩ := idx_facts t
  unfold iblk
  rw [View.read_apply]
  show V m c main_arg0 _ = V m c main_arg0 i
  refine congrArg (V m c main_arg0) (funext fun a => Fin.ext ?_)
  match a with
  | ⟨0, _⟩ => show win0_0.index t (0 : Fin 2) * 64 + 1 * (i 0).val = (i 0).val; rw [e0]; omega
  | ⟨1, _⟩ => show win0_0.index t (1 : Fin 2) * 8192 + 1 * (i 1).val = (i 1).val; rw [e1]; omega

/-- Entry (b, l) of the column slice the body reads at point t is x (b, 1024 (t % 8) + l). -/
theorem xcols_apply (t : Fin cfg0.N) (x0 : Vec F S64x8192 .f32) (b : Fin 64) (l : Fin 1024) (i : S64x8192.Idx)
    (h0 : (i 0).val = b.val) (h1 : (i 1).val = 1024 * (t.val % 8) + l.val) :
    Pieces.xcols (grid0.coords t) x0 (ix2 b l) = x0 i := by
  obtain ⟨-, -, -, -, -, -, -, -, -, e0, e1⟩ := idx_facts t
  unfold Pieces.xcols
  show x0 ((Rect.unit (s := S64x8192) (k0_off1 (grid0.coords t)) S64x1024.size (k0_off1_inb (grid0.coords t))).idx (ix2 b l)) = x0 i
  refine congrArg x0 (funext fun a => Fin.ext ?_)
  match a with
  | ⟨0, _⟩ => show k0_off1 (grid0.coords t) (0 : Fin 2) + 1 * b.val = (i 0).val; rw [e0, h0]; omega
  | ⟨1, _⟩ => show k0_off1 (grid0.coords t) (1 : Fin 2) + 1 * l.val = (i 1).val; rw [e1, h1]; omega

end Cert.KernelIdeal.Blocks

end
-- ==== Proof.BlockIndex.lean ====
/-
  Block vocabulary for the two long axes (extent 8192 = 8 blocks of 1024): entry 1024 k + l is offset l of
  block k. One column block's share of the sign product, and one tile's total magnitude.
-/
import Idealize.ShloMosaic.PureOps.Ideal
import Idealize.ShloMosaic.Lib.ValueIdx

noncomputable section

namespace Cert.BlockIndex

open Idealize.ShloMosaic Idealize.ShloMosaic.ValueIdx

abbrev SX : Shape := ⟨2, ![64, 8192]⟩
abbrev SW : Shape := ⟨2, ![8192, 8192]⟩

/-- Entry 1024 k + l of an axis of extent 8192: offset l of block k (read modulo the extent, so that it is an entry for every k). -/
def at8 (k : ℕ) (l : Fin 1024) : Fin 8192 := ⟨(1024 * k + l.val) % 8192, Nat.mod_lt _ (by decide)⟩

/-- Column block k's share of the product of row b of X with the signs of row (o, j) of W. -/
def term (X : SX.Idx → EReal) (W : SW.Idx → EReal) (o k : ℕ) (b : Fin 64) (j : Fin 1024) : EReal :=
  ∑ l : Fin 1024, X (ix2 b (at8 k l)) * Ideal.sign (W (ix2 (at8 o j) (at8 k l)))

/-- The total of w · sign w over the tile at block row o and block column k. -/
def tot (W : SW.Idx → EReal) (o k : ℕ) : EReal :=
  ∑ r : Fin 1024, ∑ l : Fin 1024, W (ix2 (at8 o r) (at8 k l)) * Ideal.sign (W (ix2 (at8 o r) (at8 k l)))

end Cert.BlockIndex

end
-- ==== Proof.Invariant.lean ====
/-
  The accumulation along the reduction axis. Write t = 8 o + k for a point of the grid, X and W for the argument
  arrays, and (o, r), (k, l) for row 1024 o + r and column 1024 k + l. After the body at point t

    the partial-product accumulator at (b, j) is  ∑ k' ≤ k, ∑ l, X (b, (k', l)) · sign (W ((o, j), (k', l))),
    the magnitude accumulator at every (p, q) is  ∑ k' ≤ k, ∑ r, ∑ l, W ((o, r), (k', l)) · sign (W ((o, r), (k', l))),

  by induction along the grid: at k = 0 the body starts from zero, otherwise from what the previous point (same
  o, k − 1) left.
-/
import proofs.«112605_j6373731467797_2_alg».proof.Proof.PointValues
import proofs.«112605_j6373731467797_2_alg».proof.Proof.Payloads
import proofs.«112605_j6373731467797_2_alg».proof.Proof.Blocks
import proofs.«112605_j6373731467797_2_alg».proof.Proof.BlockIndex

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Invariant

open Cert.KernelIdeal Cert.KernelIdeal.Gen Cert.BlockIndex

variable (m : (ℓ : Loc nD τ sig) → Buf (Elt Ideal) ℓ)

/-- The partial-product accumulator after point n, in closed form. -/
def accF (c : Dev nD) (n : ℕ) (b : Fin 64) (j : Fin 1024) : EReal :=
  ∑ k ∈ Finset.range (n % 8 + 1), term (V m c main_arg0) (V m c main_arg1) (n / 8) k b j

/-- The magnitude accumulator after point n, in closed form (the same at each of its 8 × 128 entries). -/
def magF (c : Dev nD) (n : ℕ) : EReal :=
  ∑ k ∈ Finset.range (n % 8 + 1), tot (V m c main_arg1) (n / 8) k

/-- One step of the partial products at point t, over the whole arrays. -/
theorem acc_point (c : Dev nD) (t : Fin cfg0.N) (prev : Vec Ideal S64x1024 .f32) (b : Fin 64) (j : Fin 1024) :
    k0_pay5 (iblk m c 1 t) (Pieces.xcols (grid0.coords t) (iblk m c 0 t)) prev (ix2 b j)
      = prev (ix2 b j) + term (V m c main_arg0) (V m c main_arg1) (t.val / 8) (t.val % 8) b j := by
  have hN : t.val < 64 := lt_of_lt_of_eq t.isLt N_0
  refine (Payloads.acc_step (iblk m c 1 t) (Pieces.xcols (grid0.coords t) (iblk m c 0 t)) prev b j).trans ?_
  refine congrArg (prev (ix2 b j) + ·) (Finset.sum_congr rfl fun l _ => ?_)
  have hl : l.val < 1024 := l.isLt
  have hj : j.val < 1024 := j.isLt
  rw [Blocks.xcols_apply t (iblk m c 0 t) b l (ix2 b (at8 (t.val % 8) l)) rfl
        (by show (1024 * (t.val % 8) + l.val) % 8192 = _; omega),
    Blocks.xwhole_apply m c t (ix2 b (at8 (t.val % 8) l)),
    Blocks.wtile_apply m c t j l (ix2 (at8 (t.val / 8) j) (at8 (t.val % 8) l))
        (by show (1024 * (t.val / 8) + j.val) % 8192 = _; omega)
        (by show (1024 * (t.val % 8) + l.val) % 8192 = _; omega)]

/-- One step of the magnitudes at point t, over the whole array. -/
theorem mag_point (c : Dev nD) (t : Fin cfg0.N) (prev : Vec Ideal S8x128 .f32) (p : Fin 8) (q : Fin 128) :
    k0_pay6 (iblk m c 1 t) prev (ix2 p q) = prev (ix2 p q) + tot (V m c main_arg1) (t.val / 8) (t.val % 8) := by
  have hN : t.val < 64 := lt_of_lt_of_eq t.isLt N_0
  refine (Payloads.mag_step (iblk m c 1 t) prev p q).trans ?_
  refine congrArg (prev (ix2 p q) + ·) (Finset.sum_congr rfl fun r _ => Finset.sum_congr rfl fun l _ => ?_)
  have hl : l.val < 1024 := l.isLt
  have hr : r.val < 1024 := r.isLt
  rw [Blocks.wtile_apply m c t r l (ix2 (at8 (t.val / 8) r) (at8 (t.val % 8) l))
        (by show (1024 * (t.val / 8) + r.val) % 8192 = _; omega)
        (by show (1024 * (t.val % 8) + l.val) % 8192 = _; omega)]

/-- Both accumulators after point t are their closed forms. -/
def Holds (c : Dev nD) (t : Fin cfg0.N) : Prop :=
  (∀ (b : Fin 64) (j : Fin 1024), (outsAt0 m c t.val t.isLt).2.2.1 (ix2 b j) = accF m c t.val b j)
  ∧ (∀ (p : Fin 8) (q : Fin 128), (outsAt0 m c t.val t.isLt).2.2.2 (ix2 p q) = magF m c t.val)

/-- At the first reduction step the sums have one term. -/
theorem holds_first (c : Dev nD) (t : Fin cfg0.N) (h0 : t.val % 8 = 0) : Holds m c t := by
  have h1 : ¬t.val % 8 = 7 := by omega
  constructor
  · intro b j
    rw [PointValues.acc_first m c t h0 h1, acc_point m c t _ b j, Payloads.zero_acc, zero_add]
    unfold accF
    rw [h0, Finset.sum_range_one]
  · intro p q
    rw [PointValues.mag_first m c t h0 h1, mag_point m c t _ p q, Payloads.zero_mag, zero_add]
    unfold magF
    rw [h0, Finset.sum_range_one]

/-- At a later reduction step one term joins the sums the previous point left. -/
theorem holds_next (c : Dev nD) (t : Fin cfg0.N) (h0 : ¬t.val % 8 = 0)
    (ih : (∀ (b : Fin 64) (j : Fin 1024), (outsAt0 m c (t.val - 1) (Nat.lt_of_le_of_lt (Nat.sub_le _ _) t.isLt)).2.2.1 (ix2 b j) = accF m c (t.val - 1) b j)
      ∧ (∀ (p : Fin 8) (q : Fin 128), (outsAt0 m c (t.val - 1) (Nat.lt_of_le_of_lt (Nat.sub_le _ _) t.isLt)).2.2.2 (ix2 p q) = magF m c (t.val - 1))) : Holds m c t := by
  have hN : t.val < 64 := lt_of_lt_of_eq t.isLt N_0
  obtain ⟨k', hk, hk', ho⟩ : ∃ k', t.val % 8 = k' + 1 ∧ (t.val - 1) % 8 = k' ∧ (t.val - 1) / 8 = t.val / 8 :=
    ⟨(t.val - 1) % 8, by omega, rfl, by omega⟩
  constructor
  · intro b j
    have e : (outsAt0 m c t.val t.isLt).2.2.1
        = k0_pay5 (iblk m c 1 t) (Pieces.xcols (grid0.coords t) (iblk m c 0 t)) (outsAt0 m c (t.val - 1) (Nat.lt_of_le_of_lt (Nat.sub_le _ _) t.isLt)).2.2.1 := by
      by_cases h1 : t.val % 8 = 7
      · exact PointValues.acc_last m c t h0 h1
      · exact PointValues.acc_mid m c t h0 h1
    rw [e, acc_point m c t _ b j, ih.1 b j]
    unfold accF
    rw [hk, hk', ho]
    exact (Finset.sum_range_succ _ _).symm
  · intro p q
    have e : (outsAt0 m c t.val t.isLt).2.2.2 = k0_pay6 (iblk m c 1 t) (outsAt0 m c (t.val - 1) (Nat.lt_of_le_of_lt (Nat.sub_le _ _) t.isLt)).2.2.2 := by
      by_cases h1 : t.val % 8 = 7
      · exact PointValues.mag_last m c t h0 h1
      · exact PointValues.mag_mid m c t h0 h1
    rw [e, mag_point m c t _ p q, ih.2 p q]
    unfold magF
    rw [hk, hk', ho]
    exact (Finset.sum_range_succ _ _).symm

/-- The closed forms hold at every point, by induction along the grid. -/
theorem holds (c : Dev nD) : ∀ (n : ℕ) (hn : n < cfg0.N), Holds m c ⟨n, hn⟩
  | 0, hn => holds_first m c ⟨0, hn⟩ rfl
  | n + 1, hn => by
    by_cases h0 : (n + 1) % 8 = 0
    · exact holds_first m c ⟨n + 1, hn⟩ h0
    · exact holds_next m c ⟨n + 1, hn⟩ h0 (holds c n (Nat.lt_of_succ_lt hn))

end Cert.KernelIdeal.Invariant

end
-- ==== Proof.Arrays.lean ====
/-
  The two arrays the region leaves. Only the last reduction step (k = 7) of each block row o writes back:
  the product block is columns [1024 o, 1024 o + 1024) of the 64 × 8192 array, the magnitude slab is slab o of the
  8 × 8 × 128 buffer, and by then the accumulators hold the sums over all eight column blocks. The eight
  flushing points' blocks tile each array, so

    the product array at (b, n) is      ∑ k < 8, (column block k's share of row b of X against the signs of row n of W),
    the magnitude buffer at (o, p, q) is ∑ k < 8, (the total of w · sign w over the tile (o, k)).
-/
import proofs.«112605_j6373731467797_2_alg».proof.Proof.Invariant
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Arrays

open Cert.KernelIdeal Cert.KernelIdeal.Gen Cert.BlockIndex

/-- The offset of entry n inside its block of 1024. -/
def lo (n : Fin 8192) : Fin 1024 := ⟨n.val % 1024, Nat.mod_lt _ (by decide)⟩

/-- The product array's entry (b, n): the eight column blocks' shares, n read as offset lo n of block n / 1024. -/
def prodAt (X : S64x8192.Idx → EReal) (W : S8192x8192.Idx → EReal) (b : Fin 64) (n : Fin 8192) : EReal :=
  ∑ k ∈ Finset.range 8, term X W (n.val / 1024) k b (lo n)

/-- The magnitude buffer's entry in slab o: the eight tiles' totals. -/
def magAt (W : S8192x8192.Idx → EReal) (o : ℕ) : EReal := ∑ k ∈ Finset.range 8, tot W o k

/-- An entry of block row o's product block, named by its array coordinates. -/
theorem prodAt_block (X : S64x8192.Idx → EReal) (W : S8192x8192.Idx → EReal) (o : ℕ) (b : Fin 64) (j : Fin 1024)
    (b' : Fin 64) (n : Fin 8192) (hb : b'.val = b.val) (hn : n.val = 1024 * o + j.val) :
    ∑ k ∈ Finset.range 8, term X W o k b j = prodAt X W b' n := by
  obtain rfl : b' = b := Fin.ext hb
  have hj : j.val < 1024 := j.isLt
  have ho : n.val / 1024 = o := by omega
  have hl : lo n = j := Fin.ext (by show n.val % 1024 = j.val; omega)
  unfold prodAt
  rw [ho, hl]

variable (m : (ℓ : Loc nD τ sig) → Buf (Elt Ideal) ℓ)

/-- The product array after the region. -/
abbrev prodArr (c : Dev nD) : Buf (Elt Ideal) ((c : Thread nD τ).loc main_v0_0) :=
  fun i => prodAt (V m c main_arg0) (V m c main_arg1) (i 0) (i 1)

/-- The magnitude buffer after the region. -/
abbrev magArr (c : Dev nD) : Buf (Elt Ideal) ((c : Thread nD τ).loc main_v0_1) :=
  fun i => magAt (V m c main_arg1) (i 0).val

/-- What a flushing point writes back to the product array is its block of `prodArr`. -/
theorem flushed_prod (c : Dev nD) (t : Fin cfg0.N) (hf : (cfg0.win 2).flush t = true) :
    (dats m 0 c).flushed 2 t = ((cfg0.win 2).blk t).view.read (Elt Ideal) (prodArr m c) := by
  have h7 : t.val % 8 = 7 := (flush0_2 t).mp hf
  have h0 : ¬t.val % 8 = 0 := by omega
  have hN : t.val < 64 := lt_of_lt_of_eq t.isLt N_0
  obtain ⟨-, -, -, -, e0, e1, -⟩ := Blocks.idx_facts t
  show (cfg0.win 2).cut (grid0.coords t) ((dats m 0 c).after 2 t) = _
  rw [after0_2, (PointValues.out_last m c t h0 h7).trans (PointValues.acc_last m c t h0 h7).symm]
  funext y
  show (outsAt0 m c t.val t.isLt).2.2.1 y = prodArr m c (((cfg0.win 2).blk t).view.emb y)
  obtain ⟨b, j, rfl⟩ : ∃ (b : Fin 64) (j : Fin 1024), y = ix2 b j := ⟨y 0, y 1, eq_ix2 y⟩
  rw [(Invariant.holds m c t.val t.isLt).1 b j]
  unfold Invariant.accF
  rw [h7]
  refine prodAt_block (V m c main_arg0) (V m c main_arg1) (t.val / 8) b j _ _ ?_ ?_
  · show win0_2.index t (0 : Fin 2) * 64 + 1 * b.val = b.val
    rw [e0]; omega
  · show win0_2.index t (1 : Fin 2) * 1024 + 1 * j.val = 1024 * (t.val / 8) + j.val
    rw [e1]; omega

/-- What a flushing point writes back to the magnitude buffer is its slab of `magArr`. -/
theorem flushed_mag (c : Dev nD) (t : Fin cfg0.N) (hf : (cfg0.win 3).flush t = true) :
    (dats m 0 c).flushed 3 t = ((cfg0.win 3).blk t).view.read (Elt Ideal) (magArr m c) := by
  have h7 : t.val % 8 = 7 := (flush0_3 t).mp hf
  have h0 : ¬t.val % 8 = 0 := by omega
  have hN : t.val < 64 := lt_of_lt_of_eq t.isLt N_0
  obtain ⟨-, -, -, -, -, -, e0, -⟩ := Blocks.idx_facts t
  show (cfg0.win 3).cut (grid0.coords t) ((dats m 0 c).after 3 t) = _
  rw [after0_3, PointValues.slab_last m c t h0 h7, ← PointValues.mag_last m c t h0 h7]
  funext y
  show k0_pay1 ((outsAt0 m c t.val t.isLt).2.2.2) y = magArr m c (((cfg0.win 3).blk t).view.emb y)
  obtain ⟨z, p, q, rfl⟩ : ∃ (z : Fin 1) (p : Fin 8) (q : Fin 128), y = ix3 z p q := ⟨y 0, y 1, y 2, eq_ix3 y⟩
  rw [Payloads.slab, (Invariant.holds m c t.val t.isLt).2 p q]
  unfold Invariant.magF
  rw [h7]
  have c0 : ((((cfg0.win 3).blk t).view.emb (ix3 z p q)) 0).val = t.val / 8 := by
    show win0_3.index t (0 : Fin 3) * 1 + 1 * z.val = t.val / 8
    have hz : z.val = 0 := by omega
    rw [e0, hz]; omega
  exact congrArg (magAt (V m c main_arg1)) c0.symm

/-- An index is in a point's product block iff each coordinate is in the block's range. -/
theorem mem_prod (t : Fin cfg0.N) (i : S64x8192.Idx) :
    i ∈ ((cfg0.win 2).blk t).view.set ↔ ∀ a : Fin 2, win0_2.index t a * S64x1024.size a ≤ (i a).val ∧ (i a).val < win0_2.index t a * S64x1024.size a + S64x1024.size a := by
  show i ∈ ((View.whole main_v0_0).slice (win0_2.rect t)).set ↔ _
  rw [View.set_slice_whole, Rect.mem_set_unit]
  exact Iff.rfl

theorem mem_mag (t : Fin cfg0.N) (i : S8x8x128.Idx) :
    i ∈ ((cfg0.win 3).blk t).view.set ↔ ∀ a : Fin 3, win0_3.index t a * S1x8x128.size a ≤ (i a).val ∧ (i a).val < win0_3.index t a * S1x8x128.size a + S1x8x128.size a := by
  show i ∈ ((View.whole main_v0_1).slice (win0_3.rect t)).set ↔ _
  rw [View.set_slice_whole, Rect.mem_set_unit]
  exact Iff.rfl

/-- The last reduction step of block row o, as a point of the grid. -/
def lastOf (o : ℕ) (ho : o < 8) : Fin cfg0.N := ⟨8 * o + 7, lt_of_lt_of_eq (by omega) N_0.symm⟩

/-- Every column n of the product array is in the block written at the last reduction step of block row n / 1024. -/
theorem final_prod (c : Dev nD) : (dats m 0 c).arrAt 2 cfg0.N = prodArr m c :=
  (dats m 0 c).arrAt_eq_of_cover 2 (prodArr m c) (flushed_prod m c) fun i => by
    have hi0 : (i 0).val < 64 := (i 0).isLt
    have hi1 : (i 1).val < 8192 := (i 1).isLt
    have ho : (i 1).val / 1024 < 8 := by omega
    obtain ⟨-, -, -, -, e0, e1, -⟩ := Blocks.idx_facts (lastOf ((i 1).val / 1024) ho)
    have e1' : win0_2.index (lastOf ((i 1).val / 1024) ho) (1 : Fin 2) = (8 * ((i 1).val / 1024) + 7) / 8 := e1
    refine ⟨lastOf ((i 1).val / 1024) ho, (flush0_2 _).mpr (by show (8 * ((i 1).val / 1024) + 7) % 8 = 7; omega), ?_⟩
    rw [mem_prod]
    intro a
    match a with
    | ⟨0, _⟩ => show win0_2.index (lastOf ((i 1).val / 1024) ho) (0 : Fin 2) * 64 ≤ (i 0).val ∧ (i 0).val < win0_2.index (lastOf ((i 1).val / 1024) ho) (0 : Fin 2) * 64 + 64
                rw [e0]; omega
    | ⟨1, _⟩ => show win0_2.index (lastOf ((i 1).val / 1024) ho) (1 : Fin 2) * 1024 ≤ (i 1).val ∧ (i 1).val < win0_2.index (lastOf ((i 1).val / 1024) ho) (1 : Fin 2) * 1024 + 1024
                rw [e1']; omega

/-- Every slab o of the magnitude buffer is the block written at the last reduction step of block row o. -/
theorem final_mag (c : Dev nD) : (dats m 0 c).arrAt 3 cfg0.N = magArr m c :=
  (dats m 0 c).arrAt_eq_of_cover 3 (magArr m c) (flushed_mag m c) fun i => by
    have hi0 : (i 0).val < 8 := (i 0).isLt
    have hi1 : (i 1).val < 8 := (i 1).isLt
    have hi2 : (i 2).val < 128 := (i 2).isLt
    obtain ⟨-, -, -, -, -, -, e0, e1, e2, -⟩ := Blocks.idx_facts (lastOf (i 0).val hi0)
    have e0' : win0_3.index (lastOf (i 0).val hi0) (0 : Fin 3) = (8 * (i 0).val + 7) / 8 := e0
    refine ⟨lastOf (i 0).val hi0, (flush0_3 _).mpr (by show (8 * (i 0).val + 7) % 8 = 7; omega), ?_⟩
    rw [mem_mag]
    intro a
    match a with
    | ⟨0, _⟩ => show win0_3.index (lastOf (i 0).val hi0) (0 : Fin 3) * 1 ≤ (i 0).val ∧ (i 0).val < win0_3.index (lastOf (i 0).val hi0) (0 : Fin 3) * 1 + 1
                rw [e0']; omega
    | ⟨1, _⟩ => show win0_3.index (lastOf (i 0).val hi0) (1 : Fin 3) * 8 ≤ (i 1).val ∧ (i 1).val < win0_3.index (lastOf (i 0).val hi0) (1 : Fin 3) * 8 + 8
                rw [e1]; omega
    | ⟨2, _⟩ => show win0_3.index (lastOf (i 0).val hi0) (2 : Fin 3) * 128 ≤ (i 2).val ∧ (i 2).val < win0_3.index (lastOf (i 0).val hi0) (2 : Fin 3) * 128 + 128
                rw [e2]; omega

end Cert.KernelIdeal.Arrays

end
-- ==== Proof.Tail.lean ====
/-
  The host operations after the region, and the kernel's run with its result named. The host sums the whole
  magnitude buffer, divides by 1024 and by 2^26, and multiplies the product array by that scalar:

    result (b, n) = product (b, n) · (((0 + ∑ over the buffer) / 1024) / 2^26).
-/
import proofs.«112605_j6373731467797_2_alg».proof.Proof.Arrays
import Idealize.ShloMosaic.Lib.StableHlo.Run
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen

/-- The operations after the region, as one function of the product array and the magnitude buffer. -/
def tail (P : S64x8192.Idx → EReal) (M : S8x8x128.Idx → EReal) : S64x8192.Idx → EReal :=
  mulf (F := Ideal) (φ := .f32) P (broadcastInDim S64x8192 ![] bcast_S_S64x8192
    (Host.divf (F := Ideal)
      (Host.divf (F := Ideal)
        (Host.reduceAdd (F := Ideal) (φ := .f32) M (constant (F := Ideal) S_ .f32 0x00000000#32) reducesTo_S8x8x128_S_d0_1_2 h_S_)
        (constant (F := Ideal) S_ .f32 0x44800000#32))
      (constant (F := Ideal) S_ .f32 0x4C800000#32)))

/-- Read at an index: the product entry times the scalar. -/
theorem tail_apply (P : S64x8192.Idx → EReal) (M : S8x8x128.Idx → EReal) (i : S64x8192.Idx) :
    tail P M i = P i * Ideal.div (Ideal.div (Ideal.ofBits .f32 0x00000000#32 + ∑ j : S8x8x128.Idx, M j)
      (Ideal.ofBits .f32 0x44800000#32)) (Ideal.ofBits .f32 0x4C800000#32) := by
  unfold tail
  refine (mulf_apply _ _ i).trans (congrArg (P i * ·) ?_)
  refine (broadcastInDim_apply _ bcast_S_S64x8192 _ i ix0 (fun a => a.elim0)).trans ?_
  simp only [Host.divf, Host.reduceAdd, Ideal.hostDivf_def, Ideal.hostReduceAdd_def]
  rw [Ideal.hostReduceAdd_total reducesTo_S8x8x128_S_d0_1_2 (fun b => b.elim0) M _ ix0]
  rfl

variable (m : (ℓ : Loc nD τ sig) → Buf (Elt Ideal) ℓ)

/-- The tail's result over what the region left. -/
theorem tail_result (c : Dev nD) :
    Pipeline.afterTail₀ cfgs (dats m) 0 (V0 m) [hostOps1] c main_v5 = tail (Arrays.prodArr m c) (Arrays.magArr m c) := by
  have e2 := (Pipeline.withArrays_arr spec0 launch0.win.arr_inj c (V0 m c) (fun w => (dats m 0 c).arrAt w (cfgs 0).N) 2).trans (Arrays.final_prod m c)
  have e3 := (Pipeline.withArrays_arr spec0 launch0.win.arr_inj c (V0 m c) (fun w => (dats m 0 c).arrAt w (cfgs 0).N) 3).trans (Arrays.final_mag m c)
  unfold Pipeline.afterTail₀
  show StableHlo.after hostOps1 _ (Proc.devRef .tc main_v5) = _
  after_results
  have key : tail (Pipeline.withArrays spec0 c (V0 m c) (fun w => (dats m 0 c).arrAt w (cfgs 0).N) (Proc.devRef .tc (Pipeline.arrRef spec0 2)))
      (Pipeline.withArrays spec0 c (V0 m c) (fun w => (dats m 0 c).arrAt w (cfgs 0).N) (Proc.devRef .tc (Pipeline.arrRef spec0 3)))
      = tail (Arrays.prodArr m c) (Arrays.magArr m c) := by rw [e2, e3]
  exact key

/-- The kernel's run: every weakly fair execution ends with the result array at the tail of the two arrays, the
    arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v5) = tail (Arrays.prodArr m c) (Arrays.magArr m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v5 (Pipeline.mem_restRefs_of main_v5 (by decide) (by decide))).trans (tail_result m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.Tail

end
-- ==== Proof.Spec.lean ====
/-
  The common value of the two programs, as one function of the argument arrays x : [64, 8192] and
  w : [8192, 8192] over the extended reals:

      G x w (b, n) = (∑ i, x (b, i) · sign (w (n, i))) · ((∑ n i, w (n, i) · sign (w (n, i))) · 2^-26),

  the product of row b of x with the signs of row n of w, scaled by the mean magnitude of w (a magnitude
  written as the entry times its sign, the mean as the total times the reciprocal of the entry count 2^26).
-/
import Idealize.ShloMosaic.PureOps.Ideal
import Idealize.ShloMosaic.Lib.ValueIdx

noncomputable section

namespace Cert.Spec

open Idealize.ShloMosaic Idealize.ShloMosaic.ValueIdx

abbrev SX : Shape := ⟨2, ![64, 8192]⟩
abbrev SW : Shape := ⟨2, ![8192, 8192]⟩

/-- Row b of x against the signs of row n of w. -/
def signDot (x : SX.Idx → EReal) (w : SW.Idx → EReal) (b : Fin 64) (n : Fin 8192) : EReal :=
  ∑ i : Fin 8192, x (ix2 b i) * Ideal.sign (w (ix2 n i))

/-- The total magnitude of w, each magnitude written as the entry times its sign. -/
def absSum (w : SW.Idx → EReal) : EReal :=
  ∑ n : Fin 8192, ∑ i : Fin 8192, w (ix2 n i) * Ideal.sign (w (ix2 n i))

/-- The mean magnitude: the total times 2^-26. -/
def scale (w : SW.Idx → EReal) : EReal := absSum w * (((1 / 67108864 : ℝ)) : EReal)

/-- The result both programs compute. -/
def G (x : SX.Idx → EReal) (w : SW.Idx → EReal) : SX.Idx → EReal :=
  fun j => signDot x w (j 0) (j 1) * scale w

end Cert.Spec

end
-- ==== Proof.RefIsSpec.lean ====
/-
  The reference program computes the common value G of the specification: at every finite input,

      reference x w (b, n) = (∑ i, x (b, i) · sign (w (n, i))) · ((∑ n i, w (n, i) · sign (w (n, i))) · 2^-26).

  The reference forms the effective weight ((s · sign (w e) - c) + c) with s the mean magnitude of w and
  c = min 1 (max (-1) (w e)) the clipped entry; c is a real number, so the difference and the sum cancel and the
  effective weight is s · sign (w e). The magnitude max a (-a) is a · sign a; the sum over the index set of w is
  the double sum over its two coordinates; the division by 2^26 is the product with its reciprocal; and the
  real factor s leaves the finite sum of real products.
-/
import proofs.«112605_j6373731467797_2_alg».proof.Proof.Spec
import proofs.«112605_j6373731467797_2_alg».proof.Proof.Consts
import proofs.«112605_j6373731467797_2_alg».proof.Proof.Gen.ReferenceIdeal.Read
import Idealize.ShloMosaic.Lib.ValueIdx
import Idealize.ShloMosaic.PureOps.Ideal.Laws

noncomputable section

namespace Cert.RefSpec

open Idealize.ShloMosaic Idealize.ShloMosaic.ValueIdx
open Cert.ReferenceIdeal Cert.ReferenceIdeal.Read

/-! ## Laws of the extended reals, over abstract finite index sets -/

/-- The coercion of a finite sum of reals is the sum of the coercions. -/
theorem coe_sum {ι : Type*} (S : Finset ι) (f : ι → ℝ) :
    ((∑ i ∈ S, f i : ℝ) : EReal) = ∑ i ∈ S, (f i : EReal) := by
  induction S using Finset.cons_induction with
  | empty => simp
  | cons a s ha ih => rw [Finset.sum_cons, Finset.sum_cons, EReal.coe_add, ih]

/-- A finite sum of real numbers is a real number. -/
theorem real_sum {ι : Type*} (S : Finset ι) (f : ι → EReal) (hf : ∀ i, ∃ r : ℝ, f i = (r : EReal)) :
    ∃ r : ℝ, ∑ i ∈ S, f i = (r : EReal) := by
  choose g hg using hf
  exact ⟨∑ i ∈ S, g i, by rw [coe_sum]; exact Finset.sum_congr rfl fun i _ => hg i⟩

/-- The sign of any extended real is a real number (-1, 0 or 1). -/
theorem real_sign (a : EReal) : ∃ r : ℝ, Ideal.sign a = (r : EReal) := by
  induction a using EReal.rec with
  | bot => exact ⟨-1, by simp⟩
  | top => exact ⟨1, by simp⟩
  | coe r => exact ⟨_, Ideal.sign_coe r⟩

/-- A product of two real numbers is a real number. -/
theorem real_mul {a b : EReal} (ha : ∃ r : ℝ, a = (r : EReal)) (hb : ∃ r : ℝ, b = (r : EReal)) :
    ∃ r : ℝ, a * b = (r : EReal) := by
  obtain ⟨r, rfl⟩ := ha
  obtain ⟨t, rfl⟩ := hb
  exact ⟨r * t, (EReal.coe_mul r t).symm⟩

/-- The magnitude max a (-a) is a · sign a, at the infinities too. -/
theorem abs_eq_mul_sign (a : EReal) : max a (-a) = a * Ideal.sign a := by
  induction a using EReal.rec with
  | bot => rw [Ideal.sign_bot, mul_neg, mul_one, EReal.neg_bot, max_eq_right bot_le]
  | top => rw [Ideal.sign_top, mul_one, EReal.neg_top, max_eq_left bot_le]
  | coe r =>
    rw [Ideal.sign_coe, ← EReal.coe_neg, ← EReal.coe_mul, self_mul_sign, abs_eq_max_neg,
      EReal.coe_strictMono.monotone.map_max]

/-- The clipped value min 1 (max (-1) a) of a real number is a real number. -/
theorem real_clip {a : EReal} (ha : ∃ r : ℝ, a = (r : EReal)) :
    ∃ c : ℝ, min (1 : EReal) (max (-1) a) = (c : EReal) := by
  obtain ⟨r, rfl⟩ := ha
  rcases min_choice (1 : EReal) (max (-1) (r : EReal)) with h | h
  · exact ⟨1, by rw [h, EReal.coe_one]⟩
  · rcases max_choice (-1 : EReal) (r : EReal) with h' | h'
    · exact ⟨-1, by rw [h, h', EReal.coe_neg, EReal.coe_one]⟩
    · exact ⟨r, by rw [h, h']⟩

/-- Subtracting a real number and adding it back changes nothing. -/
theorem sub_add_cancel_of_real (a : EReal) {c : EReal} (hc : ∃ r : ℝ, c = (r : EReal)) : a - c + c = a := by
  obtain ⟨r, rfl⟩ := hc
  exact EReal.sub_add_cancel

/-- A real factor s leaves a finite sum of products of real numbers: ∑ a k · (s · g k) = (∑ a k · g k) · s. -/
theorem sum_mul_scale {ι : Type*} (S : Finset ι) (a g : ι → EReal) (s : EReal)
    (ha : ∀ k, ∃ r : ℝ, a k = (r : EReal)) (hg : ∀ k, ∃ r : ℝ, g k = (r : EReal)) (hs : ∃ r : ℝ, s = (r : EReal)) :
    ∑ k ∈ S, a k * (s * g k) = (∑ k ∈ S, a k * g k) * s := by
  choose ar har using ha
  choose gr hgr using hg
  obtain ⟨sr, rfl⟩ := hs
  simp only [har, hgr, ← EReal.coe_mul, ← coe_sum]
  rw [Finset.sum_mul]
  exact congrArg _ (Finset.sum_congr rfl fun k _ => by ring)

/-! ## The reference, stage by stage -/

variable (x : (⟨S64x8192, .f32⟩ : BufTy).Contents (Elt Ideal)) (w : (⟨S8192x8192, .f32⟩ : BufTy).Contents (Elt Ideal))

/-- The total magnitude of w, each magnitude as the reference writes it, is the specification's total. -/
theorem sum_abs_eq : ∑ j : S8192x8192.Idx, max (w j) (-(w j)) = Cert.Spec.absSum w := by
  rw [ValueIdx.sum_idx2]
  unfold Cert.Spec.absSum
  exact Finset.sum_congr rfl fun n _ => Finset.sum_congr rfl fun i _ => abs_eq_mul_sign _

/-- The reference's scalar %2, the mean magnitude, is the specification's scale. -/
theorem v2_eq (i : S_.Idx) : val_main_v2 (F := Ideal) w i = Cert.Spec.scale w := by
  rw [val_main_v2_apply, val_main_v1_apply, val_main_cst_apply, val_main_cst_0_apply]
  simp only [val_main_v0_apply, Ideal.hostAbsf_def, Ideal.absf_def, Ideal.hostDivf_def, Ideal.ofBits_def]
  rw [Cert.Consts.ofBits_zero, Cert.Consts.ofBits_two_pow_26, zero_add, sum_abs_eq,
    Ideal.div_coe (by norm_num)]
  rfl

/-- The specification's scale at a finite w is a real number. -/
theorem real_scale (hw : ∀ j, ∃ r : ℝ, w j = (r : EReal)) : ∃ r : ℝ, Cert.Spec.scale w = (r : EReal) := by
  unfold Cert.Spec.scale Cert.Spec.absSum
  exact real_mul (real_sum _ _ fun n => real_sum _ _ fun i => real_mul (hw _) (real_sign _)) ⟨_, rfl⟩

/-- The reference's effective weight %8 at an entry e is scale · sign (w e). -/
theorem v8_eq (hw : ∀ j, ∃ r : ℝ, w j = (r : EReal)) (e : S8192x8192.Idx) :
    val_main_v8 (F := Ideal) w e = Cert.Spec.scale w * Ideal.sign (w e) := by
  rw [val_main_v8_apply, val_main_v7_apply, val_main_v6_apply, val_main_v5_apply, val_main_v4_apply, val_main_v3_apply,
    val_main_call0_v4_apply, val_main_call0_v3_apply, val_main_cst_2_apply,
    val_main_call0_v2_apply, val_main_call0_v1_apply, val_main_call0_v0_apply, val_main_cst_1_apply, v2_eq]
  simp only [Ideal.addf_def, Ideal.subf_def, Ideal.mulf_def, Ideal.minimumf_def, Ideal.maximumf_def,
    Ideal.hostUnary_sign_def, Ideal.ofBits_def]
  rw [Cert.Consts.ofBits_one, Cert.Consts.ofBits_neg_one]
  exact sub_add_cancel_of_real _ (real_clip (hw e))

/-- The left operand's index of the contraction at output index j and contraction coordinate k is (j 0, k). -/
theorem lidx_eq (j : S64x8192.Idx) (k : Fin 8192) : lidx_main_v9 j k = ix2 (j 0) k := by
  funext a
  match a with
  | ⟨0, _⟩ => rfl
  | ⟨1, _⟩ => rfl

/-- The right operand's index is (j 1, k). -/
theorem ridx_eq (j : S64x8192.Idx) (k : Fin 8192) : ridx_main_v9 j k = ix2 (j 1) k := by
  funext a
  match a with
  | ⟨0, _⟩ => rfl
  | ⟨1, _⟩ => rfl

/-- THE REFERENCE IS THE SPECIFICATION at every finite input. -/
theorem ref_eq (hx : ∀ j, ∃ r : ℝ, x j = (r : EReal)) (hw : ∀ j, ∃ r : ℝ, w j = (r : EReal)) :
    val_main_v9 (F := Ideal) x w = Cert.Spec.G x w := by
  funext j
  rw [val_main_v9_apply]
  unfold Cert.Spec.G Cert.Spec.signDot
  refine (Finset.sum_congr rfl fun k _ => ?_).trans
    (sum_mul_scale Finset.univ (fun k => x (ix2 (j 0) k)) (fun k => Ideal.sign (w (ix2 (j 1) k))) (Cert.Spec.scale w)
      (fun k => hx _) (fun k => real_sign _) (real_scale w hw))
  rw [v8_eq w hw, lidx_eq, ridx_eq]
  rfl

end Cert.RefSpec

end
-- ==== Proof.TailAlgebra.lean ====
/-
  The algebra that joins the kernel's tiled sums to the specification's whole sums. An axis of extent 8192 is
  eight blocks of 1024, entry 1024 k + l being offset l of block k, so a sum over the eight blocks and the 1024
  offsets of each is the sum over the axis. Hence the eight column blocks' shares of a sign product add up to
  the whole product, and the 8 × 8 tile totals of w · sign w add up to the total magnitude of w. The kernel
  holds each block row's total in 8 · 128 = 1024 copies; at a finite w that total is a real number, so the sum
  of the copies divided by 1024 is the total itself, and the division by 2^26 is the product with its reciprocal.
-/
import proofs.«112605_j6373731467797_2_alg».proof.Proof.BlockIndex
import proofs.«112605_j6373731467797_2_alg».proof.Proof.Spec
import proofs.«112605_j6373731467797_2_alg».proof.Proof.Consts
import proofs.«112605_j6373731467797_2_alg».proof.Proof.RefIsSpec
import Idealize.ShloMosaic.Lib.ValueIdx
import Idealize.ShloMosaic.PureOps.Ideal.Laws

noncomputable section

namespace Cert.TailAlgebra

open Idealize.ShloMosaic Idealize.ShloMosaic.ValueIdx
open Cert.BlockIndex Cert.RefSpec

/-! ## Eight blocks of 1024 tile an axis of extent 8192 -/

/-- A block number below 8 and an offset below 1024 name one entry of the axis, and every entry once. -/
def blockEquiv : Fin 8 × Fin 1024 ≃ Fin 8192 where
  toFun p := ⟨1024 * p.1.val + p.2.val, by have := p.1.isLt; have := p.2.isLt; omega⟩
  invFun i := (⟨i.val / 1024, by have := i.isLt; omega⟩, ⟨i.val % 1024, Nat.mod_lt _ (by decide)⟩)
  left_inv p := by
    have h1 := p.1.isLt
    have h2 := p.2.isLt
    refine Prod.ext (Fin.ext ?_) (Fin.ext ?_)
    · show (1024 * p.1.val + p.2.val) / 1024 = p.1.val
      omega
    · show (1024 * p.1.val + p.2.val) % 1024 = p.2.val
      omega
  right_inv i := Fin.ext (by
    show 1024 * (i.val / 1024) + i.val % 1024 = i.val
    omega)

/-- For a block number below 8 the entry at8 k l is 1024 k + l itself. -/
theorem at8_block (k : Fin 8) (l : Fin 1024) : at8 k.val l = blockEquiv (k, l) := by
  apply Fin.ext
  show (1024 * k.val + l.val) % 8192 = 1024 * k.val + l.val
  have h1 := k.isLt
  have h2 := l.isLt
  omega

/-- The sum over the eight blocks and the offsets of each is the sum over the axis. -/
theorem sum_blocks (f : Fin 8192 → EReal) :
    ∑ k ∈ Finset.range 8, ∑ l : Fin 1024, f (at8 k l) = ∑ i : Fin 8192, f i := by
  rw [Finset.sum_range (fun k => ∑ l : Fin 1024, f (at8 k l))]
  exact (Fintype.sum_prod_type' (fun (k : Fin 8) (l : Fin 1024) => f (at8 k.val l))).symm.trans
    (Fintype.sum_equiv blockEquiv _ _ fun p => congrArg f (at8_block p.1 p.2))

/-- The eight column blocks' shares add up to the product of row b of X with the signs of row (o, j) of W. -/
theorem term_total (X : SX.Idx → EReal) (W : SW.Idx → EReal) (o : ℕ) (b : Fin 64) (j : Fin 1024) :
    ∑ k ∈ Finset.range 8, term X W o k b j = Cert.Spec.signDot X W b (at8 o j) := by
  unfold term Cert.Spec.signDot
  exact sum_blocks fun i => X (ix2 b i) * Ideal.sign (W (ix2 (at8 o j) i))

/-! ## The tile totals add up to the total magnitude -/

/-- The eight tile totals of block row o add up to the total over its 1024 rows of W. -/
theorem row_total (W : SW.Idx → EReal) (o : ℕ) :
    ∑ k ∈ Finset.range 8, tot W o k
      = ∑ r : Fin 1024, ∑ i : Fin 8192, W (ix2 (at8 o r) i) * Ideal.sign (W (ix2 (at8 o r) i)) := by
  unfold tot
  rw [Finset.sum_comm]
  exact Finset.sum_congr rfl fun r _ =>
    sum_blocks fun i => W (ix2 (at8 o r) i) * Ideal.sign (W (ix2 (at8 o r) i))

/-- The 8 × 8 tile totals add up to the total magnitude of W. -/
theorem abs_total (W : SW.Idx → EReal) :
    ∑ o ∈ Finset.range 8, ∑ k ∈ Finset.range 8, tot W o k = Cert.Spec.absSum W := by
  unfold Cert.Spec.absSum
  exact (Finset.sum_congr rfl fun o _ => row_total W o).trans
    (sum_blocks fun n => ∑ i : Fin 8192, W (ix2 n i) * Ideal.sign (W (ix2 n i)))

/-! ## The replicated totals, summed and divided by the number of copies -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Over the 8 × 8 × 128 index set, a real quantity that depends on the first coordinate only sums to 1024
    times its sum over that coordinate. -/
theorem sum_slab (a : ℕ → ℝ) :
    ∑ i : (⟨3, ![8, 8, 128]⟩ : Shape).Idx, a (i 0).val = 1024 * ∑ o ∈ Finset.range 8, a o := by
  rw [sum_idx3, Finset.sum_range, Finset.mul_sum]
  refine Finset.sum_congr rfl fun o _ => ?_
  show ∑ p : Fin 8, ∑ q : Fin 128, a o.val = 1024 * a o.val
  simp only [Finset.sum_const, Finset.card_univ, Fintype.card_fin, nsmul_eq_mul]
  norm_num
  ring

/-- The sum of the replicated block-row totals, divided by the 1024 copies and by the 2^26 entries, is the
    mean magnitude of a finite W. -/
theorem scale_total (W : SW.Idx → EReal) (hw : ∀ j, ∃ r : ℝ, W j = (r : EReal)) :
    Ideal.div (Ideal.div (Ideal.ofBits .f32 0x00000000#32
        + ∑ i : (⟨3, ![8, 8, 128]⟩ : Shape).Idx, ∑ k ∈ Finset.range 8, tot W (i 0).val k)
      (Ideal.ofBits .f32 0x44800000#32)) (Ideal.ofBits .f32 0x4C800000#32) = Cert.Spec.scale W := by
  have hA : ∀ o : ℕ, ∃ r : ℝ, ∑ k ∈ Finset.range 8, tot W o k = (r : EReal) := fun o =>
    real_sum _ _ fun k => by
      unfold tot
      exact real_sum _ _ fun r => real_sum _ _ fun l => real_mul (hw _) (real_sign _)
  choose a ha using hA
  have h3 : ∑ i : (⟨3, ![8, 8, 128]⟩ : Shape).Idx, ∑ k ∈ Finset.range 8, tot W (i 0).val k
      = ((1024 * ∑ o ∈ Finset.range 8, a o : ℝ) : EReal) :=
    (Finset.sum_congr rfl fun (i : (⟨3, ![8, 8, 128]⟩ : Shape).Idx) _ => ha (i 0).val).trans
      ((coe_sum Finset.univ fun i : (⟨3, ![8, 8, 128]⟩ : Shape).Idx => a (i 0).val).symm.trans
        (congrArg Real.toEReal (sum_slab a)))
  have hs : Cert.Spec.absSum W = ((∑ o ∈ Finset.range 8, a o : ℝ) : EReal) := by
    rw [← abs_total, coe_sum]
    exact Finset.sum_congr rfl fun o _ => ha o
  rw [h3, Cert.Spec.scale, hs, Cert.Consts.ofBits_zero, zero_add, Cert.Consts.ofBits_1024,
    Cert.Consts.ofBits_two_pow_26, Ideal.div_coe (by norm_num), Ideal.div_coe (by norm_num),
    ← EReal.coe_mul, ← EReal.coe_mul, ← EReal.coe_mul]
  congr 1
  ring

end Cert.TailAlgebra

end
-- ==== Proof.KernelIsSpec.lean ====
/-
  The kernel's result is the common value. Entry (b, n) of the product array is the sum over the eight column
  blocks of their shares, that is the whole sign product of row b of x with row n of w (the blocks tile the
  axis); the scalar the host computes from the magnitude buffer is the mean magnitude of w (each block row's total
  is held 1024 times, the buffer's sum is divided by 1024 and by 2^26), exact when every entry of w is a real.
-/
import proofs.«112605_j6373731467797_2_alg».proof.Proof.Tail
import proofs.«112605_j6373731467797_2_alg».proof.Proof.TailAlgebra
import proofs.«112605_j6373731467797_2_alg».proof.Proof.Spec

set_option maxRecDepth 16384

noncomputable section

open Idealize.ShloMosaic Idealize.ShloMosaic.TcCoe Idealize.SL.Sem Idealize.ShloMosaic.ValueIdx

namespace Cert.KernelIdeal.KernelSpec

open Cert.KernelIdeal Cert.KernelIdeal.Gen Cert.BlockIndex

/-- Entry n is offset n % 1024 of block n / 1024. -/
theorem at8_lo (n : Fin 8192) : at8 (n.val / 1024) (Arrays.lo n) = n :=
  Fin.ext (by
    have hn : n.val < 8192 := n.isLt
    show (1024 * (n.val / 1024) + n.val % 1024) % 8192 = n.val
    omega)

/-- The product array's entry is the whole sign product. -/
theorem prodAt_eq (X : S64x8192.Idx → EReal) (W : S8192x8192.Idx → EReal) (b : Fin 64) (n : Fin 8192) :
    Arrays.prodAt X W b n = Cert.Spec.signDot X W b n := by
  unfold Arrays.prodAt
  rw [Cert.TailAlgebra.term_total X W (n.val / 1024) b (Arrays.lo n), at8_lo]

/-- The tail of the two arrays is the common value, when every entry of w is a real. -/
theorem tail_eq (X : S64x8192.Idx → EReal) (W : S8192x8192.Idx → EReal) (hw : ∀ j, ∃ r : ℝ, W j = (r : EReal)) :
    Tail.tail (fun i => Arrays.prodAt X W (i 0) (i 1)) (fun (i : S8x8x128.Idx) => Arrays.magAt W (i 0).val)
      = Cert.Spec.G X W := by
  funext i
  rw [Tail.tail_apply]
  show Arrays.prodAt X W (i 0) (i 1) * _ = Cert.Spec.signDot X W (i 0) (i 1) * Cert.Spec.scale W
  exact (congrArg (· * _) (prodAt_eq X W (i 0) (i 1))).trans
    (congrArg (Cert.Spec.signDot X W (i 0) (i 1) * ·) (Cert.TailAlgebra.scale_total W hw))

variable (m : (ℓ : Loc nD τ sig) → Buf (Elt Ideal) ℓ)

/-- The kernel's result array, over the launch contents of its arguments. -/
theorem kernel_eq (c : Dev nD) (hw : ∀ j, ∃ r : ℝ, m ((c : Thread nD τ).loc main_arg1) j = (r : EReal)) :
    Tail.tail (Arrays.prodArr m c) (Arrays.magArr m c)
      = Cert.Spec.G (m ((c : Thread nD τ).loc main_arg0)) (m ((c : Thread nD τ).loc main_arg1)) :=
  tail_eq (m ((c : Thread nD τ).loc main_arg0)) (m ((c : Thread nD τ).loc main_arg1)) hw

end Cert.KernelIdeal.KernelSpec

end
-- ==== Proof.FiniteInputs.lean ====
/-
  The precondition read back: the predicate "every entry of x and every entry of w is below +∞ in magnitude"
  being all ones says that each entry of the two arrays is a real number (neither infinity).
-/
import proofs.«112605_j6373731467797_2_alg».proof.Pre_finite_inputs
import proofs.«112605_j6373731467797_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic

/-- The f32 pattern of +∞ denotes the top of the extended reals. -/
theorem ofBits_inf : Ideal.ofBits .f32 0x7F800000#32 = (⊤ : EReal) := by
  simp [Ideal.ofBits, Ideal.ieee]

/-- The scalar shape has one index. -/
instance : Subsingleton Cert.Pre_finite_inputs.S_.Idx := ⟨fun a b => funext fun d => d.elim0⟩

/-- An extended real whose magnitude max a (-a) is strictly below +∞ is a real number. -/
theorem real_of_abs_lt_top (a : EReal) (h : max a (-a) < ⊤) : ∃ r : ℝ, a = (r : EReal) := by
  induction a using EReal.rec with
  | bot => simp at h
  | top => simp at h
  | coe r => exact ⟨r, rfl⟩

/-- The comparison "magnitude below the +∞ pattern" answering one says the entry is a real number. -/
theorem real_of_cmp (a : Ideal .f32)
    (h : FloatOps.cmpf .olt (FloatOps.hostAbsf a) (FloatOps.ofBits (F := Ideal) .f32 0x7F800000#32) = 1#1) :
    ∃ r : ℝ, a = (r : EReal) := by
  apply real_of_abs_lt_top
  rw [Ideal.hostAbsf_def, Ideal.absf_def, Ideal.cmpf_def, Ideal.ofBits_def, ofBits_inf] at h
  by_contra hc
  simp [Ideal.cmp, hc] at h

/-- The precondition's predicate all ones: every entry of both arrays is a real number. -/
theorem finite_of_pre [Cert.Pre_finite_inputs.Facts]
    (x : Cert.Pre_finite_inputs.S64x8192.Idx → EReal) (w : Cert.Pre_finite_inputs.S8192x8192.Idx → EReal)
    (h : Cert.Pre_finite_inputs.fn (F := Ideal) x w = fun _ => 1#1) :
    (∀ j, ∃ r : ℝ, x j = (r : EReal)) ∧ (∀ j, ∃ r : ℝ, w j = (r : EReal)) := by
  have e := congrFun h ValueIdx.ix0
  dsimp only [Cert.Pre_finite_inputs.fn] at e
  obtain ⟨e1, e2⟩ := IntOp.andi_eq_one.1 e
  refine ⟨fun j => ?_, fun j => ?_⟩
  · exact real_of_cmp _ (Host.reduce_andi_all _ _ _ _ _ e1 j)
  · exact real_of_cmp _ (Host.reduce_andi_all _ _ _ _ _ e2 j)

end Cert.FiniteInputs

end
-- ==== Proof.lean ====
/- The claim: a binarized linear layer. With x : [64, 8192] and w : [8192, 8192] finite,

     kernel    (b, n) ↦ (∑ i, x (b, i) · sign (w (n, i))) · s_k,   s_k = ((0 + ∑ over an 8 × 8 × 128 buffer) / 1024) / 2^26,
     reference (b, n) ↦ ∑ i, x (b, i) · ((s_r · sign (w (n, i)) − c (n, i)) + c (n, i)),   s_r = (0 + ∑ |w|) / 2^26,  c = clip w to [−1, 1],

   agree at every index over the extended reals. The kernel walks an 8 × 8 grid of 1024 × 1024 weight tiles, the
   second axis the reduction: for each block row it accumulates x's columns against the transposed sign tile, and the
   tile's total of w · sign w (replicated over an 8 × 128 slab), and writes both back at the last reduction step; the
   buffer's sum therefore holds every magnitude 1024 times. Both scalars are the mean magnitude of w; the clip is a real
   in [−1, 1], so subtracting and adding it back is the identity; and a finite scalar moves out of a finite sum. Each
   of these steps uses that the inputs are finite. The common value is Spec.G; Proof/KernelIsSpec.lean and
   Proof/RefIsSpec.lean identify each side with it, Proof/FiniteInputs.lean reads finiteness off the precondition.
   The kernel's idealization replaced one bit-level idiom, the sign bit carried onto 1.0, by a comparison with zero:
   its statement is the one conjunct of `preserves`. -/
import proofs.«112605_j6373731467797_2_alg».proof.Defs
import proofs.«112605_j6373731467797_2_alg».proof.Proof.Gen.Kernel
import proofs.«112605_j6373731467797_2_alg».proof.Proof.Gen.Kernel.Skeleton
import proofs.«112605_j6373731467797_2_alg».proof.Proof.Gen.Kernel.Launch
import proofs.«112605_j6373731467797_2_alg».proof.Proof.Gen.Kernel.Points
import proofs.«112605_j6373731467797_2_alg».proof.Proof.Gen.Kernel.Frame
import proofs.«112605_j6373731467797_2_alg».proof.Proof.Gen.KernelIdeal
import proofs.«112605_j6373731467797_2_alg».proof.Proof.Gen.KernelIdeal.Skeleton
import proofs.«112605_j6373731467797_2_alg».proof.Proof.Gen.KernelIdeal.Launch
import proofs.«112605_j6373731467797_2_alg».proof.Proof.Gen.KernelIdeal.Points
import proofs.«112605_j6373731467797_2_alg».proof.Proof.Gen.KernelIdeal.Frame
import proofs.«112605_j6373731467797_2_alg».proof.Proof.Gen.ReferenceIdeal
import proofs.«112605_j6373731467797_2_alg».proof.Proof.Gen.ReferenceIdeal.Run
import proofs.«112605_j6373731467797_2_alg».proof.Proof.Gen.ReferenceIdeal.Read
import proofs.«112605_j6373731467797_2_alg».proof.Proof.Gen.Pre_finite_inputs
import proofs.«112605_j6373731467797_2_alg».proof.Proof.KernelIsSpec
import proofs.«112605_j6373731467797_2_alg».proof.Proof.RefIsSpec
import proofs.«112605_j6373731467797_2_alg».proof.Proof.FiniteInputs
import Idealize.ShloMosaic.Adequacy
import Idealize.ShloMosaic.Init

noncomputable section

namespace Cert.Proof

open Idealize.ShloMosaic Idealize.SL.Sem

/-- The word-level kernel and its idealization run, and leave their arguments as they were. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
/-- The reference's run, with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- One application of "1.0 with the operand's sign bit" on a 1024 × 1024 tile: ±1 by the comparison with zero over
    the extended reals, ±1.0's pattern by the sign bit over words. -/
theorem preserves : Cert.preserves_Kernel_KernelIdeal :=
  IdealRules.sign_bit.statement Cert.KernelIdeal.S1024x1024 .f32

/-- Both programs end at Spec.G of arguments that agree and are finite. -/
theorem algebraic : @Cert.algebraic_KernelIdeal_ReferenceIdeal Cert.KernelIdeal.Gen.facts Cert.ReferenceIdeal.Gen.facts Cert.Pre_finite_inputs.Gen.facts := by
  intro m ρ m' ρ' hpre hagree
  have hfin := fun c => Cert.FiniteInputs.finite_of_pre _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelSpec.kernel_eq m c (hfin c).2), (h c).2⟩)
      (Cert.KernelIdeal.Tail.run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, (hagree c).1, (hagree c).2]
    exact Cert.RefSpec.ref_eq _ _ (hfin c).1 (hfin c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
